-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x10 : Shape := ⟨3, ![256, 512, 10]⟩
abbrev S256x512x512 : Shape := ⟨3, ![256, 512, 512]⟩
abbrev S10x32 : Shape := ⟨2, ![10, 32]⟩
abbrev S_ : Shape := ⟨0, ![]⟩

class Facts : Prop where
  bcast_S_S256x512x10 : S_.BroadcastsInDim S256x512x10 (![] : Fin 0 → Fin S256x512x10.rank)
  reducesTo_S256x512x10_S_d0_1_2 : S256x512x10.ReducesTo [0, 1, 2] S_
  h_S_ : 0 < S_.numel
  bcast_S_S256x512x512 : S_.BroadcastsInDim S256x512x512 (![] : Fin 0 → Fin S256x512x512.rank)
  reducesTo_S256x512x512_S_d0_1_2 : S256x512x512.ReducesTo [0, 1, 2] S_
  bcast_S_S10x32 : S_.BroadcastsInDim S10x32 (![] : Fin 0 → Fin S10x32.rank)
  reducesTo_S10x32_S_d0_1 : S10x32.ReducesTo [0, 1] S_

variable [Facts]

def fn_part1 {F : FTy → Type} [FloatOps F] (main_v13 : IVec S_ 1) (main_v16 : IVec S10x32 1) : IVec S_ 1 :=
  let main_c_5 : IVec S_ 1 := constantI S_ 1 1#1
  let main_v17 : IVec S_ 1 := (fun x v => Host.reduce IntOp.andi x v reducesTo_S10x32_S_d0_1 h_S_) main_v16 main_c_5
  let main_v18 : IVec S_ 1 := andi main_v13 main_v17
  main_v18

def fn {F : FTy → Type} [FloatOps F] (main_arg0 : FVec F S256x512x10 .f32) (main_arg1 : FVec F S256x512x512 .f32) (main_arg2 : FVec F S10x32 .f32) (main_arg3 : FVec F S10x32 .f32) : IVec S_ 1 :=
  let main_v0 : FVec F S256x512x10 .f32 := Host.absf main_arg0
  let main_cst : FVec F S_ .f32 := constant S_ .f32 0x7F800000#32
  let main_v1 : FVec F S256x512x10 .f32 := broadcastInDim S256x512x10 ![] bcast_S_S256x512x10 main_cst
  let main_v2 : IVec S256x512x10 1 := cmpf .olt main_v0 main_v1
  let main_c : IVec S_ 1 := constantI S_ 1 1#1
  let main_v3 : IVec S_ 1 := (fun x v => Host.reduce IntOp.andi x v reducesTo_S256x512x10_S_d0_1_2 h_S_) main_v2 main_c
  let main_v4 : FVec F S256x512x512 .f32 := Host.absf main_arg1
  let main_cst_0 : FVec F S_ .f32 := constant S_ .f32 0x7F800000#32
  let main_v5 : FVec F S256x512x512 .f32 := broadcastInDim S256x512x512 ![] bcast_S_S256x512x512 main_cst_0
  let main_v6 : IVec S256x512x512 1 := cmpf .olt main_v4 main_v5
  let main_c_1 : IVec S_ 1 := constantI S_ 1 1#1
  let main_v7 : IVec S_ 1 := (fun x v => Host.reduce IntOp.andi x v reducesTo_S256x512x512_S_d0_1_2 h_S_) main_v6 main_c_1
  let main_v8 : IVec S_ 1 := andi main_v3 main_v7
  let main_v9 : FVec F S10x32 .f32 := Host.absf main_arg2
  let main_cst_2 : FVec F S_ .f32 := constant S_ .f32 0x7F800000#32
  let main_v10 : FVec F S10x32 .f32 := broadcastInDim S10x32 ![] bcast_S_S10x32 main_cst_2
  let main_v11 : IVec S10x32 1 := cmpf .olt main_v9 main_v10
  let main_c_3 : IVec S_ 1 := constantI S_ 1 1#1
  let main_v12 : IVec S_ 1 := (fun x v => Host.reduce IntOp.andi x v reducesTo_S10x32_S_d0_1 h_S_) main_v11 main_c_3
  let main_v13 : IVec S_ 1 := andi main_v8 main_v12
  let main_v14 : FVec F S10x32 .f32 := Host.absf main_arg3
  let main_cst_4 : FVec F S_ .f32 := constant S_ .f32 0x7F800000#32
  let main_v15 : FVec F S10x32 .f32 := broadcastInDim S10x32 ![] bcast_S_S10x32 main_cst_4
  let main_v16 : IVec S10x32 1 := cmpf .olt main_v14 main_v15
  fn_part1 (F := F) main_v13 main_v16
-- ==== Kernel.lean ====
abbrev S256x512x10 : Shape := ⟨3, ![256, 512, 10]⟩
abbrev S256x512x512 : Shape := ⟨3, ![256, 512, 512]⟩
abbrev S10x32 : Shape := ⟨2, ![10, 32]⟩
abbrev S8x512x10 : Shape := ⟨3, ![8, 512, 10]⟩
abbrev S8x512x512 : Shape := ⟨3, ![8, 512, 512]⟩
abbrev S4096x10 : Shape := ⟨2, ![4096, 10]⟩
abbrev S4096x32 : Shape := ⟨2, ![4096, 32]⟩
abbrev S8x512x32 : Shape := ⟨3, ![8, 512, 32]⟩
abbrev S8x512 : Shape := ⟨2, ![8, 512]⟩
abbrev S8x512x1 : Shape := ⟨3, ![8, 512, 1]⟩

abbrev nBuf : Space → Nat
  | .hbm => 5
  | .vmem => 8
  | .smem => 0
  | _ => 0

abbrev bufTy : (tb : Table) → Fin (tcTables nBuf tb) → BufTy
  | .hbm, ⟨0, _⟩ => ⟨S256x512x10, .f32⟩
  | .hbm, ⟨1, _⟩ => ⟨S256x512x512, .f32⟩
  | .hbm, ⟨2, _⟩ => ⟨S10x32, .f32⟩
  | .hbm, ⟨3, _⟩ => ⟨S10x32, .f32⟩
  | .hbm, ⟨4, _⟩ => ⟨S256x512x512, .f32⟩
  | .local _ .vmem, ⟨0, _⟩ => ⟨S8x512x10, .f32⟩
  | .local _ .vmem, ⟨1, _⟩ => ⟨S8x512x10, .f32⟩
  | .local _ .vmem, ⟨2, _⟩ => ⟨S8x512x512, .f32⟩
  | .local _ .vmem, ⟨3, _⟩ => ⟨S8x512x512, .f32⟩
  | .local _ .vmem, ⟨4, _⟩ => ⟨S10x32, .f32⟩
  | .local _ .vmem, ⟨5, _⟩ => ⟨S10x32, .f32⟩
  | .local _ .vmem, ⟨6, _⟩ => ⟨S8x512x512, .f32⟩
  | .local _ .vmem, ⟨7, _⟩ => ⟨S8x512x512, .f32⟩
  | _, _ => ⟨S256x512x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x512x10_S8x512x10_0_0_0 : ∀ a, (![0, 0, 0] : Fin 3 → Nat) a + S8x512x10.size a ≤ S8x512x10.size a
  h_S8x512x10 : 0 < S8x512x10.numel
  inb_S10x32_S10x32_0_0 : ∀ a, (![0, 0] : Fin 2 → Nat) a + S10x32.size a ≤ S10x32.size a
  h_S10x32 : 0 < S10x32.numel
  shapeCasts_S8x512x10_S4096x10 : S8x512x10.ShapeCasts S4096x10
  shapeCasts_S4096x32_S8x512x32 : S4096x32.ShapeCasts S8x512x32
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  reduces_S8x512x512_S8x512 : S8x512x512.Reduces [2] S8x512
  shapeCasts_S8x512_S8x512x1 : S8x512.ShapeCasts S8x512x1
  broadcasts_S8x512x1_S8x512x512 : S8x512x1.Broadcasts S8x512x512
  dot_S4096x10_S10x32_S4096x32_1_0_0_1_n_n_wf : DotDims.WF S4096x10 S10x32 S4096x32 [1] [0] [0] [1] [] []
  dot_S8x512x32_S8x512x32_S8x512x512_2_2_1_1_0_0_wf : DotDims.WF S8x512x32 S8x512x32 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x10.size a ≤ S256x512x10.size a
  hwx0_0 : ∀ i : grid0.Coords, EltTy.bits .f32 = 32 ∨ (Rect.block (s := S256x512x10) S8x512x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S256x512x512.size a
  hwx0_1 : ∀ i : grid0.Coords, EltTy.bits .f32 = 32 ∨ (Rect.block (s := S256x512x512) S8x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x32.size a ≤ S10x32.size a
  hwx0_2 : ∀ i : grid0.Coords, EltTy.bits .f32 = 32 ∨ (Rect.block (s := S10x32) S10x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x32.size a ≤ S10x32.size a
  hwx0_3 : ∀ i : grid0.Coords, EltTy.bits .f32 = 32 ∨ (Rect.block (s := S10x32) S10x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x512.size a ≤ S256x512x512.size a
  hwx0_4 : ∀ i : grid0.Coords, EltTy.bits .f32 = 32 ∨ (Rect.block (s := S256x512x512) S8x512x512.size (cc0_transform_4 i) (hinb0_4 i)).WholeWords (EltTy.packing .f32)

variable [Facts₀]

def dot_S4096x10_S10x32_S4096x32_1_0_0_1_n_n : DotDims S4096x10 S10x32 S4096x32 where
  lhsContracting := [1]
  rhsContracting := [0]
  lhsNonContracting := [0]
  rhsNonContracting := [1]
  lhsBatch := []
  rhsBatch := []
  wf := dot_S4096x10_S10x32_S4096x32_1_0_0_1_n_n_wf
def dot_S8x512x32_S8x512x32_S8x512x512_2_2_1_1_0_0 : DotDims S8x512x32 S8x512x32 S8x512x512 where
  lhsContracting := [2]
  rhsContracting := [2]
  lhsNonContracting := [1]
  rhsNonContracting := [1]
  lhsBatch := [0]
  rhsBatch := [0]
  wf := dot_S8x512x32_S8x512x32_S8x512x512_2_2_1_1_0_0_wf

abbrev win0_0 : Pipeline.Window sig grid0 :=
  Pipeline.Window.ofSpec (Memref.whole main_arg0) S8x512x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x512x10 : Shape := ⟨3, ![256, 512, 10]⟩
abbrev S256x512x512 : Shape := ⟨3, ![256, 512, 512]⟩
abbrev S10x32 : Shape := ⟨2, ![10, 32]⟩
abbrev S256x512x32 : Shape := ⟨3, ![256, 512, 32]⟩
abbrev S_ : Shape := ⟨0, ![]⟩
abbrev S256x512 : Shape := ⟨2, ![256, 512]⟩
abbrev S256x512x1 : Shape := ⟨3, ![256, 512, 1]⟩

abbrev nBuf : Space → Nat
  | .hbm => 17
  | .vmem => 0
  | .smem => 0
  | _ => 0

abbrev bufTy : (tb : Table) → Fin (tcTables nBuf tb) → BufTy
  | .hbm, ⟨0, _⟩ => ⟨S256x512x10, .f32⟩
  | .hbm, ⟨1, _⟩ => ⟨S256x512x512, .f32⟩
  | .hbm, ⟨2, _⟩ => ⟨S10x32, .f32⟩
  | .hbm, ⟨3, _⟩ => ⟨S10x32, .f32⟩
  | .hbm, ⟨4, _⟩ => ⟨S256x512x32, .f32⟩
  | .hbm, ⟨5, _⟩ => ⟨S256x512x32, .f32⟩
  | .hbm, ⟨6, _⟩ => ⟨S256x512x512, .f32⟩
  | .hbm, ⟨7, _⟩ => ⟨S256x512x512, .f32⟩
  | .hbm, ⟨8, _⟩ => ⟨S256x512x512, .f32⟩
  | .hbm, ⟨9, _⟩ => ⟨S_, .f32⟩
  | .hbm, ⟨10, _⟩ => ⟨S256x512, .f32⟩
  | .hbm, ⟨11, _⟩ => ⟨S256x512x1, .f32⟩
  | .hbm, ⟨12, _⟩ => ⟨S_, .f32⟩
  | .hbm, ⟨13, _⟩ => ⟨S256x512x1, .f32⟩
  | .hbm, ⟨14, _⟩ => ⟨S256x512x1, .f32⟩
  | .hbm, ⟨15, _⟩ => ⟨S256x512x512, .f32⟩
  | .hbm, ⟨16, _⟩ => ⟨S256x512x512, .f32⟩
  | _, _ => ⟨S256x512x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  bcast_S256x512x1_S256x512x512_0_1_2 : S256x512x1.BroadcastsInDim S256x512x512 (![0, 1, 2] : Fin 3 → Fin S256x512x512.rank)
  dot_S256x512x10_S10x32_S256x512x32_2_0_01_1_n_n_wf : DotDims.WF S256x512x10 S10x32 S256x512x32 [2] [0] [0, 1] [1] [] []
  dot_S256x512x32_S256x512x32_S256x512x512_2_2_1_1_0_0_wf : DotDims.WF S256x512x32 S256x512x32 S256x512x512 [2] [2] [1] [1] [0] [0]

variable [Facts₀]

def dot_S256x512x10_S10x32_S256x512x32_2_0_01_1_n_n : DotDims S256x512x10 S10x32 S256x512x32 where
  lhsContracting := [2]
  rhsContracting := [0]
  lhsNonContracting := [0, 1]
  rhsNonContracting := [1]
  lhsBatch := []
  rhsBatch := []
  wf := dot_S256x512x10_S10x32_S256x512x32_2_0_01_1_n_n_wf
def dot_S256x512x32_S256x512x32_S256x512x512_2_2_1_1_0_0 : DotDims S256x512x32 S256x512x32 S256x512x512 where
  lhsContracting := [2]
  rhsContracting := [2]
  lhsNonContracting := [1]
  rhsNonContracting := [1]
  lhsBatch := [0]
  rhsBatch := [0]
  wf := dot_S256x512x32_S256x512x32_S256x512x512_2_2_1_1_0_0_wf

class Facts : Prop extends Facts₀ where

variable [Facts]
-- ==== Proof.Spec.lean ====
/-
  The function both programs compute, index by index, on the extended reals.

  For a batch b, a query row n and a key row j:
    proj s W b n h  = Σ_k s[b,n,k] · W[k,h]                      (a row of s projected on hidden coordinate h)
    score b n j     = Σ_h proj s Q b n h · proj s K b j h        (the query row against the key row)
    att b n j       = score b n j · score b n j · G[b,n,j]       (squared, then masked)
    normAt b n j    = att b n j / (Σ_j' att b n j' + ε)          (normalized over the key axis)
  Every sum is a finite sum in the commutative monoid of the extended reals, so its order is immaterial;
  nothing here distributes a product over a sum, and no finiteness is used. The batch extent B is a parameter:
  a batch's value depends only on that batch's rows of s and of G (normAt_congr), so the value of a block of
  batches is the block of the values.
-/
import Idealize.ShloMosaic.PureOps.Ideal
import Idealize.ShloMosaic.Lib.ValueIdx

noncomputable section

open scoped BigOperators

namespace Cert.Spec

open Idealize.ShloMosaic Idealize.ShloMosaic.ValueIdx

variable {B : Nat}

/-- Row n of batch b of s, projected on hidden coordinate h by the weight W. -/
def proj (s : (⟨3, ![B, 512, 10]⟩ : Shape).Idx → EReal) (W : (⟨2, ![10, 32]⟩ : Shape).Idx → EReal)
    (b : Fin B) (n : Fin 512) (h : Fin 32) : EReal :=
  ∑ k : Fin 10, s (ix3 b n k) * W (ix2 k h)

/-- The query row n against the key row j, in batch b. -/
def score (s : (⟨3, ![B, 512, 10]⟩ : Shape).Idx → EReal) (Q K : (⟨2, ![10, 32]⟩ : Shape).Idx → EReal)
    (b : Fin B) (n j : Fin 512) : EReal :=
  ∑ h : Fin 32, proj s Q b n h * proj s K b j h

/-- The squared score, masked by G. -/
def att (s : (⟨3, ![B, 512, 10]⟩ : Shape).Idx → EReal) (G : (⟨3, ![B, 512, 512]⟩ : Shape).Idx → EReal)
    (Q K : (⟨2, ![10, 32]⟩ : Shape).Idx → EReal) (b : Fin B) (n j : Fin 512) : EReal :=
  score s Q K b n j * score s Q K b n j * G (ix3 b n j)

/-- The masked squared score, normalized over the key axis (ε is the f32 word of 0.001, the same word in both programs). -/
def normAt (s : (⟨3, ![B, 512, 10]⟩ : Shape).Idx → EReal) (G : (⟨3, ![B, 512, 512]⟩ : Shape).Idx → EReal)
    (Q K : (⟨2, ![10, 32]⟩ : Shape).Idx → EReal) (b : Fin B) (n j : Fin 512) : EReal :=
  Ideal.div (att s G Q K b n j) ((∑ j' : Fin 512, att s G Q K b n j') + Ideal.ofBits .f32 0x3A83126F#32)

/-- The whole result array. -/
def out (s : (⟨3, ![B, 512, 10]⟩ : Shape).Idx → EReal) (G : (⟨3, ![B, 512, 512]⟩ : Shape).Idx → EReal)
    (Q K : (⟨2, ![10, 32]⟩ : Shape).Idx → EReal) : (⟨3, ![B, 512, 512]⟩ : Shape).Idx → EReal :=
  fun i => normAt s G Q K (i 0) (i 1) (i 2)

theorem out_ix3 (s : (⟨3, ![B, 512, 10]⟩ : Shape).Idx → EReal) (G : (⟨3, ![B, 512, 512]⟩ : Shape).Idx → EReal)
    (Q K : (⟨2, ![10, 32]⟩ : Shape).Idx → EReal) (b : Fin B) (n j : Fin 512) :
    out s G Q K (ix3 b n j) = normAt s G Q K b n j := rfl

/-- A batch's value depends only on that batch's rows of s and of G: if batch b of (sB, GB) is batch b' of (s, G),
    the two values agree on it. -/
theorem normAt_congr {B' : Nat} (sB : (⟨3, ![B, 512, 10]⟩ : Shape).Idx → EReal) (s : (⟨3, ![B', 512, 10]⟩ : Shape).Idx → EReal)
    (GB : (⟨3, ![B, 512, 512]⟩ : Shape).Idx → EReal) (G : (⟨3, ![B', 512, 512]⟩ : Shape).Idx → EReal)
    (Q K : (⟨2, ![10, 32]⟩ : Shape).Idx → EReal) (b : Fin B) (b' : Fin B')
    (hs : ∀ (n : Fin 512) (k : Fin 10), sB (ix3 b n k) = s (ix3 b' n k))
    (hG : ∀ n j : Fin 512, GB (ix3 b n j) = G (ix3 b' n j)) (n j : Fin 512) :
    normAt sB GB Q K b n j = normAt s G Q K b' n j := by
  simp only [normAt, att, score, proj, hs, hG]

end Cert.Spec

end
-- ==== Proof.RefSide.lean ====
/-
  The reference computes the specification: its result, read index by index through its operations (two
  projections, the batched product of their rows, the square, the mask, the sum over the key axis plus ε, the
  quotient), is Spec.out of its four arguments.
-/
import proofs.«118455_j4080218931831_2_alg».proof.Proof.Gen.ReferenceIdeal.Read
import proofs.«118455_j4080218931831_2_alg».proof.Proof.Spec

noncomputable section

open scoped BigOperators

namespace Cert.RefSide

open Idealize.ShloMosaic Idealize.ShloMosaic.ValueIdx Cert.ReferenceIdeal Cert.ReferenceIdeal.Read

/-! The operand indices of each operation, named by coordinates. -/

theorem lidx2 (b : Fin 256) (n j : Fin 512) (h : Fin 32) : lidx_main_v2 (ix3 b n j) h = ix3 b n h :=
  funext fun a => Fin.ext (by match a with | ⟨0, _⟩ => rfl | ⟨1, _⟩ => rfl | ⟨2, _⟩ => rfl)
theorem ridx2 (b : Fin 256) (n j : Fin 512) (h : Fin 32) : ridx_main_v2 (ix3 b n j) h = ix3 b j h :=
  funext fun a => Fin.ext (by match a with | ⟨0, _⟩ => rfl | ⟨1, _⟩ => rfl | ⟨2, _⟩ => rfl)
theorem lidx0 (b : Fin 256) (n : Fin 512) (h : Fin 32) (k : Fin 10) : lidx_main_v0 (ix3 b n h) k = ix3 b n k :=
  funext fun a => Fin.ext (by match a with | ⟨0, _⟩ => rfl | ⟨1, _⟩ => rfl | ⟨2, _⟩ => rfl)
theorem ridx0 (b : Fin 256) (n : Fin 512) (h : Fin 32) (k : Fin 10) : ridx_main_v0 (ix3 b n h) k = ix2 k h :=
  funext fun a => Fin.ext (by match a with | ⟨0, _⟩ => rfl | ⟨1, _⟩ => rfl)
theorem lidx1 (b : Fin 256) (n : Fin 512) (h : Fin 32) (k : Fin 10) : lidx_main_v1 (ix3 b n h) k = ix3 b n k :=
  funext fun a => Fin.ext (by match a with | ⟨0, _⟩ => rfl | ⟨1, _⟩ => rfl | ⟨2, _⟩ => rfl)
theorem ridx1 (b : Fin 256) (n : Fin 512) (h : Fin 32) (k : Fin 10) : ridx_main_v1 (ix3 b n h) k = ix2 k h :=
  funext fun a => Fin.ext (by match a with | ⟨0, _⟩ => rfl | ⟨1, _⟩ => rfl)
theorem idx5 (b : Fin 256) (n j : Fin 512) : idx_main_v5 (ix2 b n) j = ix3 b n j :=
  funext fun a => Fin.ext (by match a with | ⟨0, _⟩ => rfl | ⟨1, _⟩ => rfl | ⟨2, _⟩ => rfl)
theorem idx6 (b : Fin 256) (n : Fin 512) (z : Fin 1) : idx_main_v6 (ix3 b n z) = ix2 b n :=
  funext fun a => Fin.ext (by match a with | ⟨0, _⟩ => rfl | ⟨1, _⟩ => rfl)
theorem idx9 (b : Fin 256) (n j : Fin 512) : idx_main_v9 (ix3 b n j) = ix3 b n (0 : Fin 1) :=
  funext fun a => Fin.ext (by match a with | ⟨0, _⟩ => rfl | ⟨1, _⟩ => rfl | ⟨2, _⟩ => rfl)

variable (x0 : (⟨S256x512x10, .f32⟩ : BufTy).Contents (Elt Ideal)) (x1 : (⟨S256x512x512, .f32⟩ : BufTy).Contents (Elt Ideal))
  (x2 x3 : (⟨S10x32, .f32⟩ : BufTy).Contents (Elt Ideal))

/-- The two projections. -/
theorem v0_at (b : Fin 256) (n : Fin 512) (h : Fin 32) :
    val_main_v0 (F := Ideal) x0 x2 (ix3 b n h) = Spec.proj x0 x2 b n h := by
  rw [val_main_v0_apply]
  simp only [lidx0, ridx0]
  rfl
theorem v1_at (b : Fin 256) (n : Fin 512) (h : Fin 32) :
    val_main_v1 (F := Ideal) x0 x3 (ix3 b n h) = Spec.proj x0 x3 b n h := by
  rw [val_main_v1_apply]
  simp only [lidx1, ridx1]
  rfl

/-- The masked squared score. -/
theorem v4_at (b : Fin 256) (n j : Fin 512) :
    val_main_v4 (F := Ideal) x0 x1 x2 x3 (ix3 b n j) = Spec.att x0 x1 x2 x3 b n j := by
  rw [val_main_v4_apply, val_main_v3_apply, val_main_v2_apply]
  simp only [lidx2, ridx2, v0_at, v1_at]
  rfl

/-- The reference's result is the specification. -/
theorem ref_eq : val_main_v10 (F := Ideal) x0 x1 x2 x3 = Spec.out x0 x1 x2 x3 := by
  funext i
  obtain ⟨b, n, j, rfl⟩ : ∃ (b : Fin 256) (n j : Fin 512), i = ix3 b n j := ⟨i 0, i 1, i 2, eq_ix3 i⟩
  rw [Spec.out_ix3, val_main_v10_apply, val_main_v9_apply, idx9, val_main_v8_apply, val_main_v6_apply, idx6,
    val_main_v7_apply, val_main_cst_0_apply, val_main_v5_apply, val_main_cst_apply, v4_at]
  simp only [idx5, v4_at]
  show Ideal.div _ ((Ideal.ofBits .f32 0x00000000#32 + _) + Ideal.ofBits .f32 0x3A83126F#32) = _
  rw [Ideal.ofBits_zero_f32, zero_add]
  rfl

end Cert.RefSide

end
-- ==== Proof.Body.lean ====
/-
  What the kernel body leaves in the output block at one grid point, as a value.

  The body stores A = (masked squared scores of the point's blocks) into the output block, reads the block back twice,
  and stores A / (row sums of A + ε) over it. Both stores cover the whole block, so the block ends holding the second
  store's value, and each read-back between the two stores reads the first store's value A whole.
-/
import proofs.«118455_j4080218931831_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body: the second store's value, computed from two read-backs of the first store's. -/
theorem out_value (c : Dev nD) (i : grid0.Coords) (a1 : Memref sig .tc .vmem S8x512x10 .f32) (h1 : a1.IsWhole)
    (a2 : Memref sig .tc .vmem S8x512x512 .f32) (h2 : a2.IsWhole) (a3 : Memref sig .tc .vmem S10x32 .f32) (h3 : a3.IsWhole)
    (a4 : Memref sig .tc .vmem S10x32 .f32) (h4 : a4.IsWhole) (a5 : Memref sig .tc .vmem S8x512x512 .f32) (h5 : a5.IsWhole)
    (x0 : Vec F S8x512x10 .f32) (x1 : Vec F S8x512x512 .f32) (x2 : Vec F S10x32 .f32) (x3 : Vec F S10x32 .f32) :
    out0_A_4 c i a1 h1 a2 h2 a3 h3 a4 h4 a5 h5 x0 x1 x2 x3
      = k0_pay2 (k0_pay1 x0 x2 x3 x1) (k0_pay1 x0 x2 x3 x1) := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_cons_unit_zero (S := S8x512x512) hz3]
  simp only [View.readCov_unit_zero (S := S8x512x512) _ hz3, View.readAt_eq_ld, h1.read_unread, h2.read_unread,
    h3.read_unread, h4.read_unread, View.ld_unit_zero (S := S8x512x10) hz3, View.ld_unit_zero (S := S8x512x512) hz3,
    View.ld_unit_zero (S := S10x32) hz2]

end Cert.KernelIdeal.Body

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.PayloadAt.lean ====
/-
  The two values the kernel body stores, read at an index of the output block, on the extended reals.

  At one grid point the body holds a block of 8 batches: s-block [8,512,10], G-block [8,512,512], and the two weights.
  It flattens the s-block to [4096,10] (row 512·b + n holds row n of batch b), multiplies by each weight, un-flattens
  the two products to [8,512,32], and contracts them over the hidden axis batch by batch: the first stored value is
  Spec.att of the blocks. The second stored value divides what was read back, entry by entry, by its row's sum over
  the key axis plus ε.
-/
import proofs.«118455_j4080218931831_2_alg».proof.Proof.Gen.KernelIdeal.Skeleton
import proofs.«118455_j4080218931831_2_alg».proof.Proof.Spec
import proofs.«118455_j4080218931831_2_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-- The row of a flattened [4096, ·] matrix that holds row n of batch b of the block. -/
abbrev flatRow (b : Fin 8) (n : Fin 512) : Fin 4096 := ⟨b.val * 512 + n.val, by omega⟩

/-! ## The reshapes -/

/-- The block flattened to [4096,10], at (512·b + n, k), is the block at (b, n, k). -/
theorem flat_at (v : FVec Ideal S8x512x10 .f32) (hc : S8x512x10.ShapeCasts S4096x10) (b : Fin 8) (n : Fin 512) (k : Fin 10) :
    shapeCast S4096x10 v hc (ix2 (flatRow b n) k) = v (ix3 b n k) :=
  shapeCast_apply v hc (ix2 (flatRow b n) k) (ix3 b n k) (by
    rw [Shape.rowMajor_val_three, Shape.rowMajor_val_two]; rfl)

/-- A [4096,32] matrix un-flattened to [8,512,32], at (b, n, h), is the matrix at (512·b + n, h). -/
theorem unflat_at (v : FVec Ideal S4096x32 .f32) (hc : S4096x32.ShapeCasts S8x512x32) (b : Fin 8) (n : Fin 512) (h : Fin 32) :
    shapeCast S8x512x32 v hc (ix3 b n h) = v (ix2 (flatRow b n) h) :=
  shapeCast_apply v hc (ix3 b n h) (ix2 (flatRow b n) h) (by
    rw [Shape.rowMajor_val_three, Shape.rowMajor_val_two]; rfl)

/-- A [8,512] array given a trailing unit axis, at (b, n, 0), is the array at (b, n). -/
theorem keep_at (v : FVec Ideal S8x512 .f32) (hc : S8x512.ShapeCasts S8x512x1) (b : Fin 8) (n : Fin 512) (z : Fin 1) :
    shapeCast S8x512x1 v hc (ix3 b n z) = v (ix2 b n) :=
  shapeCast_apply v hc (ix3 b n z) (ix2 b n) (by
    rw [Shape.rowMajor_val_three, Shape.rowMajor_val_two]
    show b.val * 512 + n.val = (b.val * 512 + n.val) * 1 + z.val
    omega)

/-- A [8,512,1] column broadcast along the key axis, at (b, n, j), is the column at (b, n, 0). -/
theorem col_at (v : FVec Ideal S8x512x1 .f32) (hb : S8x512x1.Broadcasts S8x512x512) (b : Fin 8) (n j : Fin 512) :
    broadcastTo S8x512x512 v hb (ix3 b n j) = v (ix3 b n (0 : Fin 1)) :=
  broadcastTo_apply v hb (ix3 b n j) (ix3 b n (0 : Fin 1)) (fun a => match a with
    | ⟨0, _⟩ => by show b.val = if (8 : Nat) = 1 then 0 else b.val; rw [if_neg (by decide)]
    | ⟨1, _⟩ => by show n.val = if (512 : Nat) = 1 then 0 else n.val; rw [if_neg (by decide)]
    | ⟨2, _⟩ => by show 0 = if (1 : Nat) = 1 then 0 else j.val; rw [if_pos rfl])

/-! ## The contractions -/

/-- The projection's dimension numbers are those of a plain matrix product. -/
theorem dot1_plain : dot_S4096x10_S10x32_S4096x32_1_0_0_1_n_n = DotDims.plain 4096 10 32 := rfl

/-- The flattened block times a weight, at (r, h): the sum over the 10 input features. -/
theorem mm_at (L : FVec Ideal S4096x10 .f32) (W : FVec Ideal S10x32 .f32) (r : Fin 4096) (h : Fin 32) :
    matmul dot_S4096x10_S10x32_S4096x32_1_0_0_1_n_n none L W (constant S4096x32 .f32 0x00000000#32) (ix2 r h)
      = ∑ k : Fin 10, L (ix2 r k) * W (ix2 k h) := by
  rw [dot1_plain]
  exact Cert.Bridge.LibMatmul.matmul_zero_apply none L W r h

theorem lhs3_0 (i : S8x512x512.Idx) (q : dot_S8x512x32_S8x512x32_S8x512x512_2_2_1_1_0_0.contr.Idx) :
    (dot_S8x512x32_S8x512x32_S8x512x512_2_2_1_1_0_0.lhsIdx i q 0).val = (i 0).val := by
  unfold DotDims.lhsIdx
  rw [dif_pos (show (0 : Fin S8x512x32.rank) ∈ dot_S8x512x32_S8x512x32_S8x512x512_2_2_1_1_0_0.lhsBatch by decide)]
  rfl
theorem lhs3_1 (i : S8x512x512.Idx) (q : dot_S8x512x32_S8x512x32_S8x512x512_2_2_1_1_0_0.contr.Idx) :
    (dot_S8x512x32_S8x512x32_S8x512x512_2_2_1_1_0_0.lhsIdx i q 1).val = (i 1).val := by
  unfold DotDims.lhsIdx
  rw [dif_neg (show ¬(1 : Fin S8x512x32.rank) ∈ dot_S8x512x32_S8x512x32_S8x512x512_2_2_1_1_0_0.lhsBatch by decide), dif_pos (show (1 : Fin S8x512x32.rank) ∈ dot_S8x512x32_S8x512x32_S8x512x512_2_2_1_1_0_0.lhsNonContracting by decide)]
  rfl
theorem lhs3_2 (i : S8x512x512.Idx) (q : dot_S8x512x32_S8x512x32_S8x512x512_2_2_1_1_0_0.contr.Idx) :
    (dot_S8x512x32_S8x512x32_S8x512x512_2_2_1_1_0_0.lhsIdx i q 2).val = (q ⟨0, by decide⟩).val :=
  dot_S8x512x32_S8x512x32_S8x512x512_2_2_1_1_0_0.lhsIdx_val_of_single rfl i q
theorem rhs3_0 (i : S8x512x512.Idx) (q : dot_S8x512x32_S8x512x32_S8x512x512_2_2_1_1_0_0.contr.Idx) :
    (dot_S8x512x32_S8x512x32_S8x512x512_2_2_1_1_0_0.rhsIdx i q 0).val = (i 0).val := by
  unfold DotDims.rhsIdx
  rw [dif_pos (show (0 : Fin S8x512x32.rank) ∈ dot_S8x512x32_S8x512x32_S8x512x512_2_2_1_1_0_0.rhsBatch by decide)]
  rfl
theorem rhs3_1 (i : S8x512x512.Idx) (q : dot_S8x512x32_S8x512x32_S8x512x512_2_2_1_1_0_0.contr.Idx) :
    (dot_S8x512x32_S8x512x32_S8x512x512_2_2_1_1_0_0.rhsIdx i q 1).val = (i 2).val := by
  unfold DotDims.rhsIdx
  rw [dif_neg (show ¬(1 : Fin S8x512x32.rank) ∈ dot_S8x512x32_S8x512x32_S8x512x512_2_2_1_1_0_0.rhsBatch by decide), dif_pos (show (1 : Fin S8x512x32.rank) ∈ dot_S8x512x32_S8x512x32_S8x512x512_2_2_1_1_0_0.rhsNonContracting by decide)]
  rfl
theorem rhs3_2 (i : S8x512x512.Idx) (q : dot_S8x512x32_S8x512x32_S8x512x512_2_2_1_1_0_0.contr.Idx) :
    (dot_S8x512x32_S8x512x32_S8x512x512_2_2_1_1_0_0.rhsIdx i q 2).val = (q ⟨0, by decide⟩).val :=
  dot_S8x512x32_S8x512x32_S8x512x512_2_2_1_1_0_0.rhsIdx_val_of_single rfl i q

/-- The batched contraction over the hidden axis, at (b, n, j): query row n against key row j of batch b. -/
theorem bmm_at (L R : FVec Ideal S8x512x32 .f32) (b : Fin 8) (n j : Fin 512) :
    matmul dot_S8x512x32_S8x512x32_S8x512x512_2_2_1_1_0_0 none L R (constant S8x512x512 .f32 0x00000000#32) (ix3 b n j)
      = ∑ h : Fin 32, L (ix3 b n h) * R (ix3 b j h) := by
  simp only [matmul]
  rw [Ideal.matmul_constant_zero_apply, ← Equiv.sum_comp (contrEquiv1 dot_S8x512x32_S8x512x32_S8x512x512_2_2_1_1_0_0 32 rfl rfl).symm]
  refine Finset.sum_congr rfl fun h _ => ?_
  have hk := contrEquiv1_symm_val dot_S8x512x32_S8x512x32_S8x512x512_2_2_1_1_0_0 32 rfl rfl h
  have el : dot_S8x512x32_S8x512x32_S8x512x512_2_2_1_1_0_0.lhsIdx (ix3 b n j) ((contrEquiv1 dot_S8x512x32_S8x512x32_S8x512x512_2_2_1_1_0_0 32 rfl rfl).symm h) = ix3 b n h := funext fun a => Fin.ext (by
    match a with
    | ⟨0, _⟩ => exact lhs3_0 _ _
    | ⟨1, _⟩ => exact lhs3_1 _ _
    | ⟨2, _⟩ => exact (lhs3_2 _ _).trans hk)
  have er : dot_S8x512x32_S8x512x32_S8x512x512_2_2_1_1_0_0.rhsIdx (ix3 b n j) ((contrEquiv1 dot_S8x512x32_S8x512x32_S8x512x512_2_2_1_1_0_0 32 rfl rfl).symm h) = ix3 b j h := funext fun a => Fin.ext (by
    match a with
    | ⟨0, _⟩ => exact rhs3_0 _ _
    | ⟨1, _⟩ => exact rhs3_1 _ _
    | ⟨2, _⟩ => exact (rhs3_2 _ _).trans hk)
  rw [el, er]

/-- The sum over the key axis, at (b, n). -/
theorem rowsum_at (v : FVec Ideal S8x512x512 .f32) (hr : S8x512x512.Reduces [2] S8x512) (hφ : FKind.Formats .f32)
    (hacc : (0x00000000#32 : BitVec 32) = FKind.add.neutral .f32 hφ) (b : Fin 8) (n : Fin 512) :
    multiReduction .add [2] S8x512 v 0x00000000#32 hr hφ hacc (ix2 b n) = ∑ j : Fin 512, v (ix3 b n j) := by
  refine (Ideal.multiReduction_add_single v 0x00000000#32 hr hφ hacc (ix2 b n)).trans ?_
  show ∑ j : Fin 512, v (hr.lift (ix2 b n) j) = _
  refine Finset.sum_congr rfl fun j _ => congrArg v ?_
  funext a
  refine Fin.ext ?_
  match a with
  | ⟨0, _⟩ => rfl
  | ⟨1, _⟩ => rfl
  | ⟨2, _⟩ => rfl

/-! ## The two stored values -/

/-- The first stored value at (b, n, j): the masked squared score of the blocks. -/
theorem pay1_at (v0 : Vec Ideal S8x512x10 .f32) (v1 v2 : Vec Ideal S10x32 .f32) (v10 : Vec Ideal S8x512x512 .f32)
    (b : Fin 8) (n j : Fin 512) :
    k0_pay1 v0 v1 v2 v10 (ix3 b n j) = Spec.att v0 v10 v1 v2 b n j := by
  simp only [k0_pay1, mulf_apply, bmm_at, unflat_at, mm_at, flat_at]
  rfl

/-- The second stored value at (b, n, j): the entry read back, over its row's sum plus ε. -/
theorem pay2_at (A A' : Vec Ideal S8x512x512 .f32) (b : Fin 8) (n j : Fin 512) :
    k0_pay2 A A' (ix3 b n j)
      = Ideal.div (A' (ix3 b n j)) ((∑ j' : Fin 512, A (ix3 b n j')) + Ideal.ofBits .f32 0x3A83126F#32) := by
  simp only [k0_pay2, shapeCast_self, divf_apply, col_at, addf_apply, keep_at, broadcast_apply]
  exact congrArg (fun x => Ideal.div (A' (ix3 b n j)) (x + Ideal.ofBits .f32 0x3A83126F#32)) (rowsum_at A _ _ _ b n)

end Cert.KernelIdeal.PayloadAt

end
-- ==== Proof.PointValue.lean ====
/-
  The value one grid point leaves in the output block, as a block of the specification.

  Grid point p holds batches 8p … 8p+7. If the point's s- and G-blocks are those batches' rows of the whole arrays and
  its weight blocks are the whole weights, then entry (b, n, j) of what the body leaves is the specification of the
  whole arrays at (8p + b, n, j): the specification of a batch reads only that batch's rows.
-/
import proofs.«118455_j4080218931831_2_alg».proof.Proof.PayloadAt

noncomputable section

open scoped BigOperators

namespace Cert.KernelIdeal.PointValue

open Idealize.ShloMosaic Idealize.ShloMosaic.ValueIdx Cert.KernelIdeal Cert.KernelIdeal.Gen Cert.KernelIdeal.PayloadAt

/-- The batch of the whole array that row b of grid point p's block holds. -/
abbrev bat (p : Nat) (hp : p < 32) (b : Fin 8) : Fin 256 := ⟨8 * p + b.val, by omega⟩

theorem point_value (s : S256x512x10.Idx → EReal) (G : S256x512x512.Idx → EReal) (Q K : S10x32.Idx → EReal)
    (x0 : Vec Ideal S8x512x10 .f32) (x1 : Vec Ideal S8x512x512 .f32) (x2 x3 : Vec Ideal S10x32 .f32)
    (p : Nat) (hp : p < 32)
    (h0 : ∀ (b : Fin 8) (n : Fin 512) (k : Fin 10), x0 (ix3 b n k) = s (ix3 (bat p hp b) n k))
    (h1 : ∀ (b : Fin 8) (n j : Fin 512), x1 (ix3 b n j) = G (ix3 (bat p hp b) n j))
    (h2 : x2 = Q) (h3 : x3 = K) (b : Fin 8) (n j : Fin 512) :
    k0_pay2 (k0_pay1 x0 x2 x3 x1) (k0_pay1 x0 x2 x3 x1) (ix3 b n j) = Spec.out s G Q K (ix3 (bat p hp b) n j) := by
  subst h2 h3
  rw [pay2_at, Spec.out_ix3]
  simp only [pay1_at]
  exact Spec.normAt_congr x0 s x1 G x2 x3 b (bat p hp b) (h0 b) (h1 b) n j

end Cert.KernelIdeal.PointValue

end
-- ==== Proof.Blocks.lean ====
/-
  From blocks to the array: after the run the kernel's result array is the specification of its four arguments.

  The grid has 32 points; point t stages batches 8t … 8t+7 of s and of G, the two weights whole, and writes back batches
  8t … 8t+7 of the result. What it writes back is the specification's block (the value of one point), and the 32 blocks
  tile the result array (batch β lies in point β / 8's block), so the array ends holding the specification.
-/
import proofs.«118455_j4080218931831_2_alg».proof.Proof.Gen.KernelIdeal.Value
import proofs.«118455_j4080218931831_2_alg».proof.Proof.Body
import proofs.«118455_j4080218931831_2_alg».proof.Proof.PointValue

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.PointValue (bat point_value)

variable (m : (ℓ : Loc nD τ sig) → Buf (Elt Ideal) ℓ) (ρ : Dev nD → PrngReg)

/-- A grid point's number is below 32. -/
theorem pt_lt (t : Fin cfg0.N) : t.val < 32 :=
  lt_of_lt_of_eq t.isLt (N_0 : cfg0.N = 32)

/-- The block index of every window at every grid point: s, G and the result move with the point along the batch axis,
    the weights stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks at a point -/

/-- The s-block at point t is batches 8t … 8t+7 of s. -/
theorem blk0_at (c : Dev nD) (t : Fin cfg0.N) (b : Fin 8) (n : Fin 512) (k : Fin 10) :
    (iblk m c 0 t : Vec Ideal S8x512x10 .f32) (ix3 b n k)
      = (m ((c : Thread nD τ).loc main_arg0) : S256x512x10.Idx → EReal) (ix3 (bat t.val (pt_lt t) b) n k) := by
  obtain ⟨e0, e1, e2, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 8 + 1 * b.val = 8 * t.val + b.val; rw [e0]; omega
  | ⟨1, _⟩ => show win0_0.index t (1 : Fin 3) * 512 + 1 * n.val = n.val; rw [e1]; omega
  | ⟨2, _⟩ => show win0_0.index t (2 : Fin 3) * 10 + 1 * k.val = k.val; rw [e2]; omega

/-- The G-block at point t is batches 8t … 8t+7 of G. -/
theorem blk1_at (c : Dev nD) (t : Fin cfg0.N) (b : Fin 8) (n j : Fin 512) :
    (iblk m c 1 t : Vec Ideal S8x512x512 .f32) (ix3 b n j)
      = (m ((c : Thread nD τ).loc main_arg1) : S256x512x512.Idx → EReal) (ix3 (bat t.val (pt_lt t) b) n j) := by
  obtain ⟨-, -, -, e0, e1, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 3) * 8 + 1 * b.val = 8 * t.val + b.val; rw [e0]; omega
  | ⟨1, _⟩ => show win0_1.index t (1 : Fin 3) * 512 + 1 * n.val = n.val; rw [e1]; omega
  | ⟨2, _⟩ => show win0_1.index t (2 : Fin 3) * 512 + 1 * j.val = j.val; rw [e2]; omega

/-- The query weight's block at every point is the whole weight. -/
theorem blk2_eq (c : Dev nD) (t : Fin cfg0.N) :
    (iblk m c 2 t : Vec Ideal S10x32 .f32) = (m ((c : Thread nD τ).loc main_arg2) : S10x32.Idx → EReal) := by
  obtain ⟨-, -, -, -, -, -, e0, e1, -⟩ := idx_facts t
  funext y
  unfold iblk
  rw [View.read_apply]
  show V m c main_arg2 _ = V m c main_arg2 y
  refine congrArg (V m c main_arg2) ?_
  funext a
  apply Fin.ext
  match a with
  | ⟨0, _⟩ => show win0_2.index t (0 : Fin 2) * 10 + 1 * (y 0).val = (y 0).val; rw [e0]; omega
  | ⟨1, _⟩ => show win0_2.index t (1 : Fin 2) * 32 + 1 * (y 1).val = (y 1).val; rw [e1]; omega

/-- The key weight's block at every point is the whole weight. -/
theorem blk3_eq (c : Dev nD) (t : Fin cfg0.N) :
    (iblk m c 3 t : Vec Ideal S10x32 .f32) = (m ((c : Thread nD τ).loc main_arg3) : S10x32.Idx → EReal) := by
  obtain ⟨-, -, -, -, -, -, -, -, e0, e1, -⟩ := idx_facts t
  funext y
  unfold iblk
  rw [View.read_apply]
  show V m c main_arg3 _ = V m c main_arg3 y
  refine congrArg (V m c main_arg3) ?_
  funext a
  apply Fin.ext
  match a with
  | ⟨0, _⟩ => show win0_3.index t (0 : Fin 2) * 10 + 1 * (y 0).val = (y 0).val; rw [e0]; omega
  | ⟨1, _⟩ => show win0_3.index t (1 : Fin 2) * 32 + 1 * (y 1).val = (y 1).val; rw [e1]; omega

/-! ## The result -/

/-- The result array: the specification of the four arguments as launched. -/
abbrev result (c : Dev nD) : Buf (Elt Ideal) ((c : Thread nD τ).loc main_v0) :=
  Spec.out (m ((c : Thread nD τ).loc main_arg0)) (m ((c : Thread nD τ).loc main_arg1))
    (m ((c : Thread nD τ).loc main_arg2)) (m ((c : Thread nD τ).loc main_arg3))

/-- What the output block holds after the body at point t, entry by entry. -/
theorem outs_at (c : Dev nD) (t : Fin cfg0.N) (b : Fin 8) (n j : Fin 512) :
    (outsAt0 m c t : Vec Ideal S8x512x512 .f32) (ix3 b n j)
      = (result m c : S256x512x512.Idx → EReal) (ix3 (bat t.val (pt_lt t) b) n j) := by
  unfold outsAt0
  rw [Body.out_value]
  exact point_value (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) t.val (pt_lt t)
    (blk0_at m c t) (blk1_at m c t) (blk2_eq m c t) (blk3_eq m c t) b n j

/-- The same at any index of the block. -/
theorem outs_fun (c : Dev nD) (t : Fin cfg0.N) (y : S8x512x512.Idx) :
    (outsAt0 m c t : Vec Ideal S8x512x512 .f32) y
      = (result m c : S256x512x512.Idx → EReal) (ix3 (bat t.val (pt_lt t) (y 0)) (y 1) (y 2)) := by
  have hyy : y = ix3 (y 0) (y 1) (y 2) := eq_ix3 y
  exact (congrArg (outsAt0 m c t : Vec Ideal S8x512x512 .f32) hyy).trans (outs_at m c t (y 0) (y 1) (y 2))

/-- What point t writes back is the result's block at t. -/
theorem flushed_eq (c : Dev nD) (t : Fin cfg0.N) :
    (dats m 0 c).flushed 4 t = ((cfg0.win 4).blk t).view.read (Elt Ideal) (result m c) := by
  obtain ⟨-, -, -, -, -, -, -, -, -, -, e0, e1, e2⟩ := idx_facts t
  rw [Value.flushed4]
  funext y
  rw [View.read_apply]
  show (outsAt0 m c t : Vec Ideal S8x512x512 .f32) y = (result m c : S256x512x512.Idx → EReal) (((cfg0.win 4).blk t).view.emb y)
  refine (outs_fun m c t y).trans (congrArg (result m c : S256x512x512.Idx → EReal) ?_)
  funext a
  apply Fin.ext
  match a with
  | ⟨0, _⟩ => show 8 * t.val + (y 0).val = win0_4.index t (0 : Fin 3) * 8 + 1 * (y 0).val; rw [e0]; omega
  | ⟨1, _⟩ => show (y 1).val = win0_4.index t (1 : Fin 3) * 512 + 1 * (y 1).val; rw [e1]; omega
  | ⟨2, _⟩ => show (y 2).val = win0_4.index t (2 : Fin 3) * 512 + 1 * (y 2).val; rw [e2]; omega

/-- An index of the result array is in point t's block iff each coordinate is in the block's range on its axis. -/
theorem mem_blk (t : Fin cfg0.N) (i : S256x512x512.Idx) :
    i ∈ ((cfg0.win 4).blk t).view.set ↔ ∀ a : Fin 3, win0_4.index t a * S8x512x512.size a ≤ (i a).val ∧ (i a).val < win0_4.index t a * S8x512x512.size a + S8x512x512.size a := by
  show i ∈ ((View.whole main_v0).slice (win0_4.rect t)).set ↔ _
  rw [View.set_slice_whole, Rect.mem_set_unit]
  exact Iff.rfl

/-- The blocks tile the result array: batch β is in the block of point β / 8. -/
theorem cover (i : S256x512x512.Idx) :
    ∃ t : Fin cfg0.N, (cfg0.win 4).flush t = true ∧ i ∈ ((cfg0.win 4).blk t).view.set := by
  have hi0 : (i 0).val < 256 := (i 0).isLt
  have hi1 : (i 1).val < 512 := (i 1).isLt
  have hi2 : (i 2).val < 512 := (i 2).isLt
  have hN : cfg0.N = 32 := N_0
  obtain ⟨t, ht⟩ : ∃ t : Fin cfg0.N, t.val = (i 0).val / 8 := ⟨⟨(i 0).val / 8, by rw [hN]; omega⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; rw [e0]; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 512 ≤ (i 2).val ∧ (i 2).val < win0_4.index t (2 : Fin 3) * 512 + 512; rw [e2]; omega

/-- The result array after the run is the specification. -/
theorem final (c : Dev nD) : (dats m 0 c).arrAt 4 cfg0.N = result m c :=
  (dats m 0 c).arrAt_eq_of_cover 4 (result m c) (fun t _ => flushed_eq m c t) cover

/-- The kernel's run: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  The kernel and its reference compute one function on the extended reals.

  For s : [256,512,10], G : [256,512,512] and two weights Q, K : [10,32], both programs compute, per batch b,
      q = s_b · Q,   k = s_b · K,   score = q · kᵀ,   att = score² ∘ G,   out = att / (Σ_j att + ε),
  with the same word ε on both sides. The reference does it on whole arrays. The kernel does it on 32 blocks of 8
  batches: it flattens a block of s to [4096,10] for the two projections, un-flattens them, contracts them batch by
  batch, stores att into the output block, reads the block back, and stores the quotient over it.

  Read index by index, each side is the same nest of finite sums and products (Spec.out): a reshape only renames an
  index, a product into a zero accumulator is the bare sum, and the order of a finite sum of extended reals is
  immaterial. Nothing distributes over a sum, so the inputs' finiteness is not used. The value of a batch reads only
  that batch's rows, so the value of a block of batches is the block of the values, and the 32 blocks tile the result.

    RefSide     the reference's result is Spec.out of its arguments
    Body        the output block after the body, as the two stored values composed
    PayloadAt   the two stored values at an index; PointValue: one grid point's block of Spec.out
    Blocks      what each point writes back, the tiling, and the kernel's run
  The three frames are the generated ones (the reference's is its generated run with the result dropped), and the
  idealization rewrote nothing.
-/
import proofs.«118455_j4080218931831_2_alg».proof.Defs
import proofs.«118455_j4080218931831_2_alg».proof.Proof.Gen.Kernel
import proofs.«118455_j4080218931831_2_alg».proof.Proof.Gen.Kernel.Frame
import proofs.«118455_j4080218931831_2_alg».proof.Proof.Gen.KernelIdeal
import proofs.«118455_j4080218931831_2_alg».proof.Proof.Gen.KernelIdeal.Frame
import proofs.«118455_j4080218931831_2_alg».proof.Proof.Gen.KernelIdeal.Value
import proofs.«118455_j4080218931831_2_alg».proof.Proof.Gen.ReferenceIdeal
import proofs.«118455_j4080218931831_2_alg».proof.Proof.Gen.ReferenceIdeal.Run
import proofs.«118455_j4080218931831_2_alg».proof.Proof.Gen.ReferenceIdeal.Read
import proofs.«118455_j4080218931831_2_alg».proof.Proof.Gen.Pre_finite_inputs
import proofs.«118455_j4080218931831_2_alg».proof.Proof.RefSide
import proofs.«118455_j4080218931831_2_alg».proof.Proof.Blocks

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at Spec.out of arguments that agree. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefSide.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
